-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v40_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v40_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x1 : Shape := ⟨2, ![1, 1]⟩

abbrev nBuf : Space → Nat
  | .hbm => 63
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .bf16⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .bf16⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S1x128, .f32⟩
  | .hbm, ⟨43, _⟩ => ⟨S50000x128, .bf16⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .bf16⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S1x128, .f32⟩
  | .hbm, ⟨59, _⟩ => ⟨S1x1, .f32⟩
  | .hbm, ⟨60, _⟩ => ⟨S50000x128, .f32⟩
  | .hbm, ⟨61, _⟩ => ⟨S50000x1, .f32⟩
  | .hbm, ⟨62, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x128, .bf16⟩
  | .local _ .vmem, ⟨14, _⟩ => ⟨S5000x128, .bf16⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x1, .f32⟩
  | .local _ .vmem, ⟨21, _⟩ => ⟨S1x1, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40_0 : Ref sig .tc := ⟨.hbm, 60, rfl⟩
abbrev main_v40_1 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S50000x1_S50000 : S50000x1.ShapeCasts S50000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .bf16 = 32 ∨ (Rect.block (s := S50000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S128x1.size a
  hwx1_6 : ∀ i : grid1.Coords, EltTy.bits .f32 = 32 ∨ (Rect.block (s := S128x1) S128x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x1.size a ≤ S50000x1.size a
  hwx1_9 : ∀ i : grid1.Coords, EltTy.bits .f32 = 32 ∨ (Rect.block (s := S50000x1) S5000x1.size (cc1_transform_9 i) (hinb1_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v40_0) S5000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v40_1) S5000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S50000x1, .f32⟩
  | .hbm, ⟨83, _⟩ => ⟨S1x1, .f32⟩
  | .hbm, ⟨84, _⟩ => ⟨S50000x1, .f32⟩
  | .hbm, ⟨85, _⟩ => ⟨S50000x1, .f32⟩
  | .hbm, ⟨86, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.LibFlooredMean.lean ====
/-
  A mean by a count floored at one, taken by division or by the reciprocal: two pointwise laws over the extended reals,
  and the first of them on whole arrays.

  The mean over a node's in-neighbours divides a sum by the in-degree floored at one. One side divides by the floored
  degree, the other multiplies by its reciprocal. The floored degree is at least one, hence not zero, and the quotient
  of extended reals by a nonzero divisor IS the product with the divisor's inverse; so the two agree for every value of
  the sum and of the degree, infinite ones included. The other law is the order of the three summands of a layer:
  addition of extended reals is commutative and associative.
-/
import Idealize.ShloMosaic.PureOps.Ideal
import Idealize.ShloMosaic.PureOps.Ideal.Laws
import Idealize.ShloMosaic.Lib.IdealHost
import proofs.«155257_j49606872269110_2_alg».proof.Proof.LibHostRowForms

noncomputable section

namespace Cert.FlooredMean

open Idealize.ShloMosaic

/-- A divisor floored at one is not zero. -/
theorem floor_one_ne_zero (a : EReal) : max a 1 ≠ 0 :=
  (lt_of_lt_of_le zero_lt_one (le_max_right a 1)).ne'

/-- Dividing by a degree floored at one is multiplying by the reciprocal of that floored degree. -/
theorem div_floor_one (s a : EReal) : Ideal.div s (max a 1) = s * Ideal.div 1 (max a 1) := by
  have h : max a 1 ≠ 0 := floor_one_ne_zero a
  simp only [Ideal.div, if_neg h, one_mul]

/-- The same law with the float word of one where the programs print it. -/
theorem div_floor_one_word (s a : EReal) :
    Ideal.div s (max a (Ideal.ofBits .f32 0x3F800000#32))
      = s * Ideal.div (Ideal.ofBits .f32 0x3F800000#32) (max a (Ideal.ofBits .f32 0x3F800000#32)) := by
  rw [Ideal.ofBits_one_f32]
  exact div_floor_one s a

/-- A layer's three summands in either order. -/
theorem add_bias_last (a b c : EReal) : a + c + b = a + b + c := add_right_comm a c b

open Idealize.ShloMosaic.ValueIdx Cert.HostRowForms

/-- The law on whole arrays: a matrix of neighbour sums `[n, d]` divided by the floored degree of its row (the degree
    vector `[n]` floored at one, laid out as a column and copied along the row) is the matrix times the reciprocal of
    the floored degree laid out the same way. -/
theorem mean_forms {n d : ℕ} (S : FVec Ideal ⟨2, ![n, d]⟩ .f32) (cnt : FVec Ideal ⟨1, ![n]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, d]⟩ ![0, 1]) :
    Host.divf S (broadcastInDim ⟨2, ![n, d]⟩ ![0, 1] h2 (broadcastInDim ⟨2, ![n, 1]⟩ ![0] h1
        (maximumf cnt (broadcastInDim ⟨1, ![n]⟩ ![] h0 (constant (F := Ideal) ⟨0, ![]⟩ .f32 0x3F800000#32)))))
      = mulf S (broadcastInDim ⟨2, ![n, d]⟩ ![0, 1] h2 (broadcastInDim ⟨2, ![n, 1]⟩ ![0] h1
        (Host.divf (broadcastInDim ⟨1, ![n]⟩ ![] h0 (constant (F := Ideal) ⟨0, ![]⟩ .f32 0x3F800000#32))
          (maximumf cnt (broadcastInDim ⟨1, ![n]⟩ ![] h0 (constant (F := Ideal) ⟨0, ![]⟩ .f32 0x3F800000#32)))))) := by
  funext i
  obtain ⟨p, q, rfl⟩ : ∃ (p : Fin n) (q : Fin d), i = ix2 p q := ⟨i 0, i 1, eq_ix2 i⟩
  show Ideal.div (S (ix2 p q)) (broadcastInDim (s := ⟨2, ![n, 1]⟩) ⟨2, ![n, d]⟩ ![0, 1] h2 _ (ix2 p q))
    = S (ix2 p q) * broadcastInDim (s := ⟨2, ![n, 1]⟩) ⟨2, ![n, d]⟩ ![0, 1] h2 _ (ix2 p q)
  rw [bcast_a1_ab_apply _ _ rfl, bcast_a1_ab_apply _ _ rfl, bcast_a_a1_apply _ _ rfl, bcast_a_a1_apply _ _ rfl]
  exact div_floor_one_word (S (ix2 p q)) (cnt (ix1 p))

end Cert.FlooredMean

end
-- ==== Proof.LibSageLayer.lean ====
/-
  One entry of a mean-aggregation graph layer, written two ways, over the extended reals.

  A layer of a sampling-and-aggregating graph network sends node `i` with features `h i` and summed neighbour
  features `a i` (the sum over the edges that end in `i`) to

      max (mean i · Wl + b + h i · Wr) 0,      mean i = a i / max (deg i) 1,

  the in-degree floored at one so that a node without neighbours gets the mean `0`. One way divides every entry of
  the neighbour sum by the floored degree, contracts, adds the bias and then the node's own term. The other way takes
  the reciprocal of the floored degree once per node, multiplies the neighbour sum by it, contracts both terms, and adds
  the bias last. They agree entry by entry for ALL extended-real values of the inputs: the floored degree is at
  least one, hence not zero, and a quotient by a nonzero divisor is the product with the divisor's reciprocal; the
  rest is commutativity and associativity of the sum of three terms, which hold on the extended reals without any
  finiteness. One output entry is stated here as a function of the rows and columns it reads.
-/
import Idealize.ShloMosaic.PureOps.Ideal
import Idealize.ShloMosaic.PureOps.Ideal.Laws
import Idealize.ShloMosaic.Lib.IdealHost
import proofs.«155257_j49606872269110_2_alg».proof.Proof.LibFlooredMean

noncomputable section

namespace Cert.SageLayer

open Idealize.ShloMosaic
open scoped BigOperators

/-- An output entry when the neighbour sums `a` are first scaled by a per-node factor `r`: the scaled sums
    contracted with a column `wl`, plus the node's own row `h` contracted with a column `wr`, plus the bias
    entry `b`, floored at `z`. -/
def scaledEntry {n : ℕ} (a h wl wr : Fin n → EReal) (r b z : EReal) : EReal :=
  max ((∑ c : Fin n, (a c * r) * wl c) + (∑ c : Fin n, h c * wr c) + b) z

/-- The entry depends on its rows, columns and scalars only through their values. -/
theorem scaledEntry_congr {n : ℕ} {a a' h h' wl wl' wr wr' : Fin n → EReal} {r r' b b' : EReal} (z : EReal)
    (ha : a = a') (hh : h = h') (hwl : wl = wl') (hwr : wr = wr') (hr : r = r') (hb : b = b') :
    scaledEntry a h wl wr r b z = scaledEntry a' h' wl' wr' r' b' z := by
  subst ha hh hwl hwr hr hb; rfl

/-- The same entry when the neighbour sums are divided by the degree `d` floored at `one`, the bias added
    before the node's own term. -/
def meanEntry {n : ℕ} (a h wl wr : Fin n → EReal) (d one b z : EReal) : EReal :=
  max ((∑ c : Fin n, Ideal.div (a c) (max d one) * wl c) + b + (∑ c : Fin n, h c * wr c)) z

/-- Scaling by the reciprocal of the floored degree is dividing by the floored degree, entry by entry, and the
    three summands may be added in either order. -/
theorem scaledEntry_recip_eq_meanEntry {n : ℕ} (a h wl wr : Fin n → EReal) (d b z : EReal) :
    scaledEntry a h wl wr
        (Ideal.div (Ideal.ofBits .f32 0x3F800000#32) (max d (Ideal.ofBits .f32 0x3F800000#32))) b z
      = meanEntry a h wl wr d (Ideal.ofBits .f32 0x3F800000#32) b z := by
  unfold scaledEntry meanEntry
  rw [Cert.FlooredMean.add_bias_last]
  refine congrArg (fun s => max (s + b + ∑ c : Fin n, h c * wr c) z) ?_
  refine Finset.sum_congr rfl fun c _ => ?_
  exact (congrArg (· * wl c) (Cert.FlooredMean.div_floor_one_word (a c) d)).symm

end Cert.SageLayer

end
-- ==== Proof.KernelBlocks.lean ====
/-
  The two kernel bodies read at an entry, over the extended reals.

  Each grid point handles a block of 5000 nodes. The first body takes the block's rows of the neighbour sums, of the
  node features and of the per-node reciprocal degree (a column), the two 128 × 128 weight matrices and the bias row,
  and stores, at row `q` and column `o` of the block, the layer's entry in its scaled form: the neighbour sums times
  the row's reciprocal degree contracted with column `o` of the first weights, plus the node's own row contracted with
  column `o` of the second weights, plus the bias entry, floored at zero. Narrowing to the shorter float format is the
  identity on extended reals, the matrix unit's product into a zero accumulator is the plain sum over the shared
  axis, and the column and the bias row are copied along the block. The second body computes the same entry from its
  own operands and then one more contraction of the whole output row with the head's weight column, plus the head's bias.
-/
import proofs.«155257_j49606872269110_2_alg».proof.Proof.Gen.KernelIdeal.Skeleton
import proofs.«155257_j49606872269110_2_alg».proof.Proof.LibPlainMatmul
import proofs.«155257_j49606872269110_2_alg».proof.Proof.LibColumnForms
import proofs.«155257_j49606872269110_2_alg».proof.Proof.LibRowLayout
import proofs.«155257_j49606872269110_2_alg».proof.Proof.LibSageLayer
import Idealize.ShloMosaic.Lib.Pipeline.Value
import Idealize.ShloMosaic.Lib.ValueIdx
import Idealize.ShloMosaic.PureOps.Ideal.Laws

noncomputable section

namespace Cert.KernelIdeal.Blocks

open Idealize.ShloMosaic Idealize.ShloMosaic.ValueIdx Cert.KernelIdeal Cert.KernelIdeal.Gen
open Cert.PointConv Cert.ColumnForms Idealize.ShloMosaic.RowLayout Cert.SageLayer
open scoped BigOperators

/-- The float word of zero, the floor of the layer's output. -/
abbrev zeroWord : EReal := Ideal.ofBits .f32 0x00000000#32

/-- The reciprocal-degree column copied along a block's rows reads, at `(q, c)`, the column's entry of row `q`. -/
theorem column_along (x2 : Vec Ideal S5000x1 .f32) (q : Fin 5000) (c : Fin 128) :
    broadcastTo S5000x128 (shapeCast S5000x1 x2 shapeCasts_S5000x1_S5000x1) broadcasts_S5000x1_S5000x128 (ix2 q c)
      = x2 (ix2 q (0 : Fin 1)) := by
  rw [shapeCast_self]
  exact broadcastTo_a1_ab_apply x2 broadcasts_S5000x1_S5000x128 q c

/-- The bias row copied down a block reads, at `(q, o)`, the row's entry `o`. -/
theorem bias_down (x5 : Vec Ideal S1x128 .f32) (q : Fin 5000) (o : Fin 128) :
    broadcastTo S5000x128 (shapeCast S1x128 x5 shapeCasts_S1x128_S1x128) broadcasts_S1x128_S5000x128 (ix2 q o)
      = x5 (ix2 (0 : Fin 1) o) := by
  rw [shapeCast_self]
  exact rowBroadcast_apply x5 broadcasts_S1x128_S5000x128 q o

/-- Entry `(q, o)` of the first body's stored block: the layer's entry in scaled form, from row `q` of the block's
    neighbour sums and features, the row's reciprocal degree, column `o` of the weights and entry `o` of the bias. -/
theorem layer1_entry (x0 : Vec Ideal S5000x128 .f32) (x2 : Vec Ideal S5000x1 .f32) (x1 : Vec Ideal S5000x128 .f32)
    (x3 x4 : Vec Ideal S128x128 .f32) (x5 : Vec Ideal S1x128 .f32) (q : Fin 5000) (o : Fin 128) :
    k0_pay1 (F := Ideal) x0 x2 x1 x3 x4 x5 (ix2 q o)
      = scaledEntry (fun c : Fin 128 => x0 (ix2 q c)) (fun c => x1 (ix2 q c)) (fun c => x3 (ix2 c o)) (fun c => x4 (ix2 c o))
          (x2 (ix2 q (0 : Fin 1))) (x5 (ix2 (0 : Fin 1) o)) zeroWord := by
  unfold k0_pay1 scaledEntry
  show max (_ + _ + _) _ = _
  refine congrArg₂ max (congrArg₂ (· + ·) (congrArg₂ (· + ·) ?_ ?_) ?_) rfl
  · refine (plainMatmul_zero_apply (R := 5000) (n := 128) (k := 128) _ none _ _ q o).trans (Finset.sum_congr rfl fun c _ => ?_)
    show shapeCast S5000x128 x0 shapeCasts_S5000x128_S5000x128 (ix2 q c) * broadcastTo S5000x128 _ broadcasts_S5000x1_S5000x128 (ix2 q c) * x3 (ix2 c o) = _
    rw [shapeCast_self, column_along]
  · exact plainMatmul_zero_apply (R := 5000) (n := 128) (k := 128) _ none _ _ q o
  · exact bias_down x5 q o

/-- Entry `(q, o)` of the second body's first stored block: the same entry, the node's own row now the first
    layer's output block. -/
theorem layer2_entry (x0 : Vec Ideal S5000x128 .f32) (x2 : Vec Ideal S5000x1 .f32) (x1 : Vec Ideal S5000x128 .bf16)
    (x3 x4 : Vec Ideal S128x128 .f32) (x5 : Vec Ideal S1x128 .f32) (q : Fin 5000) (o : Fin 128) :
    k1_pay1 (F := Ideal) x0 x2 x1 x3 x4 x5 (ix2 q o)
      = scaledEntry (fun c : Fin 128 => x0 (ix2 q c)) (fun c => x1 (ix2 q c)) (fun c => x3 (ix2 c o)) (fun c => x4 (ix2 c o))
          (x2 (ix2 q (0 : Fin 1))) (x5 (ix2 (0 : Fin 1) o)) zeroWord := by
  unfold k1_pay1 scaledEntry
  show max (_ + _ + _) _ = _
  refine congrArg₂ max (congrArg₂ (· + ·) (congrArg₂ (· + ·) ?_ ?_) ?_) rfl
  · refine (plainMatmul_zero_apply (R := 5000) (n := 128) (k := 128) _ none _ _ q o).trans (Finset.sum_congr rfl fun c _ => ?_)
    show shapeCast S5000x128 x0 shapeCasts_S5000x128_S5000x128 (ix2 q c) * broadcastTo S5000x128 _ broadcasts_S5000x1_S5000x128 (ix2 q c) * x3 (ix2 c o) = _
    rw [shapeCast_self, column_along]
  · refine (plainMatmul_zero_apply (R := 5000) (n := 128) (k := 128) _ none _ _ q o).trans (Finset.sum_congr rfl fun c _ => ?_)
    show shapeCast S5000x128 x1 shapeCasts_S5000x128_S5000x128 (ix2 q c) * x4 (ix2 c o) = _
    rw [shapeCast_self]
  · exact bias_down x5 q o

/-- Entry `(q, 0)` of the second body's other stored block, the head: row `q` of the layer's output block
    contracted with the head's weight column, plus the head's bias. -/
theorem head_entry (x0 : Vec Ideal S5000x128 .f32) (x2 : Vec Ideal S5000x1 .f32) (x1 : Vec Ideal S5000x128 .bf16)
    (x3 x4 : Vec Ideal S128x128 .f32) (x5 : Vec Ideal S1x128 .f32) (x6 : Vec Ideal S128x1 .f32) (x7 : Vec Ideal S1x1 .f32)
    (q : Fin 5000) (u : Fin 1) :
    k1_pay2 (F := Ideal) x0 x2 x1 x3 x4 x5 x6 x7 (ix2 q u)
      = (∑ c : Fin 128, k1_pay1 (F := Ideal) x0 x2 x1 x3 x4 x5 (ix2 q c) * x6 (ix2 c u)) + x7 (ix2 (0 : Fin 1) u) := by
  unfold k1_pay2
  show _ + _ = _
  refine congrArg₂ (· + ·) ?_ ?_
  · exact plainMatmul_zero_apply (R := 5000) (n := 128) (k := 1) _ none _ _ q u
  · show broadcastTo S5000x1 (shapeCast S1x1 x7 shapeCasts_S1x1_S1x1) broadcasts_S1x1_S5000x1 (ix2 q u) = _
    rw [shapeCast_self]
    exact rowBroadcast_apply x7 broadcasts_S1x1_S5000x1 q u

end Cert.KernelIdeal.Blocks

end
-- ==== Proof.KernelRegions.lean ====
/-
  What each of the two kernels leaves in its output arrays, as whole-array functions of the arrays it finds.

  Both kernels walk the 50000 nodes in ten blocks of 5000 rows; at point `t` every row-following operand (the
  neighbour sums, the features, the reciprocal-degree column) is read through rows `5000 t … 5000 t + 4999`, the
  weights and biases whole, and the output block is written back to the same rows. So entry `(q, o)` of the block
  written at point `t` is the layer's entry at node `5000 t + q` and column `o`, a function of the whole operand
  arrays alone; the ten blocks tile the output array, and the array ends holding that function at every index.
  The arrays are taken as the kernel finds them when it is entered (`V`), whatever wrote them before.
-/
import proofs.«155257_j49606872269110_2_alg».proof.Proof.Gen.KernelIdeal.Frame
import proofs.«155257_j49606872269110_2_alg».proof.Proof.KernelBlocks
import Idealize.ShloMosaic.Lib.Pipeline.Value
import Idealize.ShloMosaic.Lib.Tactic

set_option maxRecDepth 16384

noncomputable section

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.SageLayer
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The layer on whole arrays, in its scaled form: entry `(n, o)` from row `n` of the neighbour sums `agg` and of the
    features `h`, the reciprocal degree `inv (n, 0)`, column `o` of the two weight matrices and entry `o` of the bias row. -/
def layerArr (agg h : S50000x128.Idx → EReal) (inv : S50000x1.Idx → EReal) (wl wr : S128x128.Idx → EReal)
    (b : S1x128.Idx → EReal) : S50000x128.Idx → EReal := fun i =>
  scaledEntry (fun c : Fin 128 => agg (ix2 (i 0) c)) (fun c => h (ix2 (i 0) c)) (fun c => wl (ix2 c (i 1)))
    (fun c => wr (ix2 c (i 1))) (inv (ix2 (i 0) (0 : Fin 1))) (b (ix2 (0 : Fin 1) (i 1))) zeroWord

/-- The head on whole arrays: entry `(n, 0)` is row `n` of `h` contracted with the weight column, plus the bias. -/
def headArr (h : S50000x128.Idx → EReal) (w : S128x1.Idx → EReal) (b : S1x1.Idx → EReal) : S50000x1.Idx → EReal := fun i =>
  (∑ c : Fin 128, h (ix2 (i 0) c) * w (ix2 c (i 1))) + b (ix2 (0 : Fin 1) (i 1))

/-! ## The first kernel -/

/-- The printed index maps over the grid: the row-following windows sit on block row `t`, column block 0; the
    weights and the bias row are their whole arrays. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the layer of the arrays the kernel finds. -/
theorem flushed0_6_eq (c : Dev nD) (t : Fin cfg0.N) :
    (dat0 V c).flushed 6 t = ((cfg0.win 6).blk t).view.read (Elt Ideal)
      (layerArr (V c main_v24) (V c main_arg0) (V c main_v12) (V c main_arg2) (V c main_arg4) (V c main_v25)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  obtain ⟨e00, e01, e10, e11, e20, e21, e30, e31, e40, e41, e50, e51, e60, e61⟩ := idx_facts0 t
  funext j
  obtain ⟨q, o, rfl⟩ : ∃ (q : Fin 5000) (o : Fin 128), j = ix2 q o := ⟨j 0, j 1, eq_ix2 j⟩
  show k0_pay1 (F := Ideal) (iblk0 V c 0 t) (iblk0 V c 2 t) (iblk0 V c 1 t) (iblk0 V c 3 t) (iblk0 V c 4 t) (iblk0 V c 5 t) (ix2 q o)
    = layerArr (V c main_v24) (V c main_arg0) (V c main_v12) (V c main_arg2) (V c main_arg4) (V c main_v25)
        (((cfg0.win 6).blk t).view.emb (ix2 q o))
  refine (layer1_entry _ _ _ _ _ _ q o).trans ?_
  unfold layerArr
  have hq : (q : Nat) < 5000 := q.isLt
  have ho : (o : Nat) < 128 := o.isLt
  have r0 : ∀ cc : Fin 128, ((cfg0.win 0).blk t).view.emb (ix2 q cc) = ix2 ((((cfg0.win 6).blk t).view.emb (ix2 q o)) 0) cc := fun cc => by
    funext a; apply Fin.ext
    match a with
    | ⟨0, _⟩ => show win0_0.index t (0 : Fin 2) * 5000 + 1 * (q : Nat) = win0_6.index t (0 : Fin 2) * 5000 + 1 * (q : Nat); omega
    | ⟨1, _⟩ => show win0_0.index t (1 : Fin 2) * 128 + 1 * (cc : Nat) = (cc : Nat); omega
  have r1 : ∀ cc : Fin 128, ((cfg0.win 1).blk t).view.emb (ix2 q cc) = ix2 ((((cfg0.win 6).blk t).view.emb (ix2 q o)) 0) cc := fun cc => by
    funext a; apply Fin.ext
    match a with
    | ⟨0, _⟩ => show win0_1.index t (0 : Fin 2) * 5000 + 1 * (q : Nat) = win0_6.index t (0 : Fin 2) * 5000 + 1 * (q : Nat); omega
    | ⟨1, _⟩ => show win0_1.index t (1 : Fin 2) * 128 + 1 * (cc : Nat) = (cc : Nat); omega
  have r2 : ((cfg0.win 2).blk t).view.emb (ix2 q (0 : Fin 1)) = ix2 ((((cfg0.win 6).blk t).view.emb (ix2 q o)) 0) (0 : Fin 1) := by
    funext a; apply Fin.ext
    match a with
    | ⟨0, _⟩ => show win0_2.index t (0 : Fin 2) * 5000 + 1 * (q : Nat) = win0_6.index t (0 : Fin 2) * 5000 + 1 * (q : Nat); omega
    | ⟨1, _⟩ => show win0_2.index t (1 : Fin 2) * 1 + 1 * 0 = 0; omega
  have r3 : ∀ cc : Fin 128, ((cfg0.win 3).blk t).view.emb (ix2 cc o) = ix2 cc ((((cfg0.win 6).blk t).view.emb (ix2 q o)) 1) := fun cc => by
    funext a; apply Fin.ext
    match a with
    | ⟨0, _⟩ => show win0_3.index t (0 : Fin 2) * 128 + 1 * (cc : Nat) = (cc : Nat); omega
    | ⟨1, _⟩ => show win0_3.index t (1 : Fin 2) * 128 + 1 * (o : Nat) = win0_6.index t (1 : Fin 2) * 128 + 1 * (o : Nat); omega
  have r4 : ∀ cc : Fin 128, ((cfg0.win 4).blk t).view.emb (ix2 cc o) = ix2 cc ((((cfg0.win 6).blk t).view.emb (ix2 q o)) 1) := fun cc => by
    funext a; apply Fin.ext
    match a with
    | ⟨0, _⟩ => show win0_4.index t (0 : Fin 2) * 128 + 1 * (cc : Nat) = (cc : Nat); omega
    | ⟨1, _⟩ => show win0_4.index t (1 : Fin 2) * 128 + 1 * (o : Nat) = win0_6.index t (1 : Fin 2) * 128 + 1 * (o : Nat); omega
  have r5 : ((cfg0.win 5).blk t).view.emb (ix2 (0 : Fin 1) o) = ix2 (0 : Fin 1) ((((cfg0.win 6).blk t).view.emb (ix2 q o)) 1) := by
    funext a; apply Fin.ext
    match a with
    | ⟨0, _⟩ => show win0_5.index t (0 : Fin 2) * 1 + 1 * 0 = 0; omega
    | ⟨1, _⟩ => show win0_5.index t (1 : Fin 2) * 128 + 1 * (o : Nat) = win0_6.index t (1 : Fin 2) * 128 + 1 * (o : Nat); omega
  show scaledEntry (fun cc : Fin 128 => V c main_v24 (((cfg0.win 0).blk t).view.emb (ix2 q cc)))
      (fun cc => V c main_arg0 (((cfg0.win 1).blk t).view.emb (ix2 q cc)))
      (fun cc => V c main_arg2 (((cfg0.win 3).blk t).view.emb (ix2 cc o)))
      (fun cc => V c main_arg4 (((cfg0.win 4).blk t).view.emb (ix2 cc o)))
      (V c main_v12 (((cfg0.win 2).blk t).view.emb (ix2 q (0 : Fin 1))))
      (V c main_v25 (((cfg0.win 5).blk t).view.emb (ix2 (0 : Fin 1) o))) zeroWord = _
  exact scaledEntry_congr zeroWord (funext fun cc => congrArg (V c main_v24) (r0 cc)) (funext fun cc => congrArg (V c main_arg0) (r1 cc))
    (funext fun cc => congrArg (V c main_arg2) (r3 cc)) (funext fun cc => congrArg (V c main_arg4) (r4 cc))
    (congrArg (V c main_v12) r2) (congrArg (V c main_v25) r5)

/-- An index of the first kernel's output array is in point `t`'s block iff each coordinate is in the block's range. -/
theorem mem_blk0_6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26).slice (win0_6.rect t)).set ↔ _
  rw [View.set_slice_whole, Rect.mem_set_unit]
  exact Iff.rfl

/-- Node `n` is in the block of point `n / 5000`: the ten blocks tile the array. -/
theorem tiles0_6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, -, -, e60, e61⟩ := idx_facts0 t
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The first kernel's output array ends holding the layer of the arrays the kernel finds. -/
theorem final0_6 (c : Dev nD) : (dat0 V c).arrAt 6 cfg0.N
    = layerArr (V c main_v24) (V c main_arg0) (V c main_v12) (V c main_arg2) (V c main_arg4) (V c main_v25) :=
  (dat0 V c).arrAt_eq_of_cover 6 _ (fun t _ => flushed0_6_eq V c t) tiles0_6

/-! ## The second kernel -/

/-- The printed index maps over the grid, as for the first kernel; the head's weight column and bias cell whole. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- The second layer's array, of the arrays the second kernel finds. -/
abbrev layer2Arr (c : Dev nD) : S50000x128.Idx → EReal :=
  layerArr (V c main_v37) (V c main_v26) (V c main_v12) (V c main_arg5) (V c main_arg7) (V c main_v38)

/-- Entry `(q, o)` of the layer block computed at point `t` is the layer's entry at node `5000 t + q`, column `o`. -/
theorem layer2_at (c : Dev nD) (t : Fin cfg1.N) (q : Fin 5000) (o : Fin 128) :
    k1_pay1 (F := Ideal) (iblk1 V c 0 t) (iblk1 V c 2 t) (iblk1 V c 1 t) (iblk1 V c 3 t) (iblk1 V c 4 t) (iblk1 V c 5 t) (ix2 q o)
      = layer2Arr V c (((cfg1.win 8).blk t).view.emb (ix2 q o)) := by
  obtain ⟨e00, e01, e10, e11, e20, e21, e30, e31, e40, e41, e50, e51, e60, e61, e70, e71, e80, e81, e90, e91⟩ := idx_facts1 t
  refine (layer2_entry _ _ _ _ _ _ q o).trans ?_
  unfold layer2Arr layerArr
  have hq : (q : Nat) < 5000 := q.isLt
  have ho : (o : Nat) < 128 := o.isLt
  have r0 : ∀ cc : Fin 128, ((cfg1.win 0).blk t).view.emb (ix2 q cc) = ix2 ((((cfg1.win 8).blk t).view.emb (ix2 q o)) 0) cc := fun cc => by
    funext a; apply Fin.ext
    match a with
    | ⟨0, _⟩ => show win1_0.index t (0 : Fin 2) * 5000 + 1 * (q : Nat) = win1_8.index t (0 : Fin 2) * 5000 + 1 * (q : Nat); omega
    | ⟨1, _⟩ => show win1_0.index t (1 : Fin 2) * 128 + 1 * (cc : Nat) = (cc : Nat); omega
  have r1 : ∀ cc : Fin 128, ((cfg1.win 1).blk t).view.emb (ix2 q cc) = ix2 ((((cfg1.win 8).blk t).view.emb (ix2 q o)) 0) cc := fun cc => by
    funext a; apply Fin.ext
    match a with
    | ⟨0, _⟩ => show win1_1.index t (0 : Fin 2) * 5000 + 1 * (q : Nat) = win1_8.index t (0 : Fin 2) * 5000 + 1 * (q : Nat); omega
    | ⟨1, _⟩ => show win1_1.index t (1 : Fin 2) * 128 + 1 * (cc : Nat) = (cc : Nat); omega
  have r2 : ((cfg1.win 2).blk t).view.emb (ix2 q (0 : Fin 1)) = ix2 ((((cfg1.win 8).blk t).view.emb (ix2 q o)) 0) (0 : Fin 1) := by
    funext a; apply Fin.ext
    match a with
    | ⟨0, _⟩ => show win1_2.index t (0 : Fin 2) * 5000 + 1 * (q : Nat) = win1_8.index t (0 : Fin 2) * 5000 + 1 * (q : Nat); omega
    | ⟨1, _⟩ => show win1_2.index t (1 : Fin 2) * 1 + 1 * 0 = 0; omega
  have r3 : ∀ cc : Fin 128, ((cfg1.win 3).blk t).view.emb (ix2 cc o) = ix2 cc ((((cfg1.win 8).blk t).view.emb (ix2 q o)) 1) := fun cc => by
    funext a; apply Fin.ext
    match a with
    | ⟨0, _⟩ => show win1_3.index t (0 : Fin 2) * 128 + 1 * (cc : Nat) = (cc : Nat); omega
    | ⟨1, _⟩ => show win1_3.index t (1 : Fin 2) * 128 + 1 * (o : Nat) = win1_8.index t (1 : Fin 2) * 128 + 1 * (o : Nat); omega
  have r4 : ∀ cc : Fin 128, ((cfg1.win 4).blk t).view.emb (ix2 cc o) = ix2 cc ((((cfg1.win 8).blk t).view.emb (ix2 q o)) 1) := fun cc => by
    funext a; apply Fin.ext
    match a with
    | ⟨0, _⟩ => show win1_4.index t (0 : Fin 2) * 128 + 1 * (cc : Nat) = (cc : Nat); omega
    | ⟨1, _⟩ => show win1_4.index t (1 : Fin 2) * 128 + 1 * (o : Nat) = win1_8.index t (1 : Fin 2) * 128 + 1 * (o : Nat); omega
  have r5 : ((cfg1.win 5).blk t).view.emb (ix2 (0 : Fin 1) o) = ix2 (0 : Fin 1) ((((cfg1.win 8).blk t).view.emb (ix2 q o)) 1) := by
    funext a; apply Fin.ext
    match a with
    | ⟨0, _⟩ => show win1_5.index t (0 : Fin 2) * 1 + 1 * 0 = 0; omega
    | ⟨1, _⟩ => show win1_5.index t (1 : Fin 2) * 128 + 1 * (o : Nat) = win1_8.index t (1 : Fin 2) * 128 + 1 * (o : Nat); omega
  show scaledEntry (fun cc : Fin 128 => V c main_v37 (((cfg1.win 0).blk t).view.emb (ix2 q cc)))
      (fun cc => V c main_v26 (((cfg1.win 1).blk t).view.emb (ix2 q cc)))
      (fun cc => V c main_arg5 (((cfg1.win 3).blk t).view.emb (ix2 cc o)))
      (fun cc => V c main_arg7 (((cfg1.win 4).blk t).view.emb (ix2 cc o)))
      (V c main_v12 (((cfg1.win 2).blk t).view.emb (ix2 q (0 : Fin 1))))
      (V c main_v38 (((cfg1.win 5).blk t).view.emb (ix2 (0 : Fin 1) o))) zeroWord = _
  exact scaledEntry_congr zeroWord (funext fun cc => congrArg (V c main_v37) (r0 cc)) (funext fun cc => congrArg (V c main_v26) (r1 cc))
    (funext fun cc => congrArg (V c main_arg5) (r3 cc)) (funext fun cc => congrArg (V c main_arg7) (r4 cc))
    (congrArg (V c main_v12) r2) (congrArg (V c main_v38) r5)

/-- What point `t` writes back to the layer's output is block `t` of the second layer's array. -/
theorem flushed1_8_eq (c : Dev nD) (t : Fin cfg1.N) :
    (dat1 V c).flushed 8 t = ((cfg1.win 8).blk t).view.read (Elt Ideal) (layer2Arr V c) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨q, o, rfl⟩ : ∃ (q : Fin 5000) (o : Fin 128), j = ix2 q o := ⟨j 0, j 1, eq_ix2 j⟩
  exact layer2_at V c t q o

/-- What point `t` writes back to the head's output is block `t` of the head of the second layer's array. -/
theorem flushed1_9_eq (c : Dev nD) (t : Fin cfg1.N) :
    (dat1 V c).flushed 9 t = ((cfg1.win 9).blk t).view.read (Elt Ideal)
      (headArr (layer2Arr V c) (V c main_arg8) (V c main_v39)) := by
  show (cfg1.win 9).cut (grid1.coords t) ((dat1 V c).after 9 t) = _
  rw [after1_9]
  unfold out1_9
  rw [View.canon_unit_zero hz]
  simp only [View.ld_unit_zero (S := S5000x128) hz, View.ld_unit_zero (S := S5000x1) hz,
    View.ld_unit_zero (S := S128x128) hz, View.ld_unit_zero (S := S1x128) hz, View.ld_unit_zero (S := S128x1) hz,
    View.ld_unit_zero (S := S1x1) hz]
  obtain ⟨e00, e01, e10, e11, e20, e21, e30, e31, e40, e41, e50, e51, e60, e61, e70, e71, e80, e81, e90, e91⟩ := idx_facts1 t
  funext j
  obtain ⟨q, u, rfl⟩ : ∃ (q : Fin 5000) (u : Fin 1), j = ix2 q u := ⟨j 0, j 1, eq_ix2 j⟩
  show k1_pay2 (F := Ideal) (iblk1 V c 0 t) (iblk1 V c 2 t) (iblk1 V c 1 t) (iblk1 V c 3 t) (iblk1 V c 4 t) (iblk1 V c 5 t) (iblk1 V c 6 t) (iblk1 V c 7 t) (ix2 q u)
    = headArr (layer2Arr V c) (V c main_arg8) (V c main_v39) (((cfg1.win 9).blk t).view.emb (ix2 q u))
  refine (head_entry _ _ _ _ _ _ _ _ q u).trans ?_
  unfold headArr
  have hq : (q : Nat) < 5000 := q.isLt
  have hu : (u : Nat) = 0 := by omega
  have r8 : ∀ cc : Fin 128, ((cfg1.win 8).blk t).view.emb (ix2 q cc) = ix2 ((((cfg1.win 9).blk t).view.emb (ix2 q u)) 0) cc := fun cc => by
    funext a; apply Fin.ext
    match a with
    | ⟨0, _⟩ => show win1_8.index t (0 : Fin 2) * 5000 + 1 * (q : Nat) = win1_9.index t (0 : Fin 2) * 5000 + 1 * (q : Nat); omega
    | ⟨1, _⟩ => show win1_8.index t (1 : Fin 2) * 128 + 1 * (cc : Nat) = (cc : Nat); omega
  have r6 : ∀ cc : Fin 128, ((cfg1.win 6).blk t).view.emb (ix2 cc u) = ix2 cc ((((cfg1.win 9).blk t).view.emb (ix2 q u)) 1) := fun cc => by
    funext a; apply Fin.ext
    match a with
    | ⟨0, _⟩ => show win1_6.index t (0 : Fin 2) * 128 + 1 * (cc : Nat) = (cc : Nat); omega
    | ⟨1, _⟩ => show win1_6.index t (1 : Fin 2) * 1 + 1 * (u : Nat) = win1_9.index t (1 : Fin 2) * 1 + 1 * (u : Nat); omega
  have r7 : ((cfg1.win 7).blk t).view.emb (ix2 (0 : Fin 1) u) = ix2 (0 : Fin 1) ((((cfg1.win 9).blk t).view.emb (ix2 q u)) 1) := by
    funext a; apply Fin.ext
    match a with
    | ⟨0, _⟩ => show win1_7.index t (0 : Fin 2) * 1 + 1 * 0 = 0; omega
    | ⟨1, _⟩ => show win1_7.index t (1 : Fin 2) * 1 + 1 * (u : Nat) = win1_9.index t (1 : Fin 2) * 1 + 1 * (u : Nat); omega
  refine congrArg₂ (· + ·) (Finset.sum_congr rfl fun cc _ => congrArg₂ (· * ·) ?_ ?_) ?_
  · exact (layer2_at V c t q cc).trans (congrArg (layer2Arr V c) (r8 cc))
  · exact congrArg (V c main_arg8) (r6 cc)
  · exact congrArg (V c main_v39) r7

/-- Membership in a block of the layer's output array, and of the head's. -/
theorem mem_blk1_8 (t : Fin cfg1.N) (i : S50000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v40_0).slice (win1_8.rect t)).set ↔ _
  rw [View.set_slice_whole, Rect.mem_set_unit]
  exact Iff.rfl

theorem mem_blk1_9 (t : Fin cfg1.N) (i : S50000x1.Idx) :
    i ∈ ((cfg1.win 9).blk t).view.set ↔ ∀ a : Fin 2, win1_9.index t a * S5000x1.size a ≤ (i a).val ∧ (i a).val < win1_9.index t a * S5000x1.size a + S5000x1.size a := by
  show i ∈ ((View.whole main_v40_1).slice (win1_9.rect t)).set ↔ _
  rw [View.set_slice_whole, Rect.mem_set_unit]
  exact Iff.rfl

theorem tiles1_8 (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, -, -, e80, e81, -, -⟩ := idx_facts1 t
  refine ⟨t, flush1_8 t, ?_⟩
  rw [mem_blk1_8]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 128 ≤ (i 1).val ∧ (i 1).val < win1_8.index t (1 : Fin 2) * 128 + 128; omega

theorem tiles1_9 (i : S50000x1.Idx) :
    ∃ t : Fin cfg1.N, (cfg1.win 9).flush t = true ∧ i ∈ ((cfg1.win 9).blk t).view.set := by
  have hi0 : (i 0).val < 50000 := (i 0).isLt
  have hi1 : (i 1).val < 1 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, -, -, -, -, e90, e91⟩ := idx_facts1 t
  refine ⟨t, flush1_9 t, ?_⟩
  rw [mem_blk1_9]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 1 ≤ (i 1).val ∧ (i 1).val < win1_9.index t (1 : Fin 2) * 1 + 1; omega

/-- The second kernel's two output arrays end holding the second layer and its head. -/
theorem final1_8 (c : Dev nD) : (dat1 V c).arrAt 8 cfg1.N = layer2Arr V c :=
  (dat1 V c).arrAt_eq_of_cover 8 _ (fun t _ => flushed1_8_eq V c t) tiles1_8

theorem final1_9 (c : Dev nD) : (dat1 V c).arrAt 9 cfg1.N = headArr (layer2Arr V c) (V c main_arg8) (V c main_v39) :=
  (dat1 V c).arrAt_eq_of_cover 9 _ (fun t _ => flushed1_9_eq V c t) tiles1_9

end Cert.KernelIdeal.Regions

end
-- ==== Proof.KernelRun.lean ====
/-
  The idealized kernel's run with its two results named.

  The program is five stretches: host operations, the first kernel, host operations, the second kernel, one last
  reshape. The generated frame certificate folds the device's buffer contents through them (`W0 … W5`) and proves
  that every weakly fair execution ends with every buffer at the last fold; it then reads only the arguments. Read here
  at the two result buffers as well, the same run says what the program returns: the last fold at those buffers.
-/
import proofs.«155257_j49606872269110_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two result buffers at the last fold of the
    buffer contents and the arguments as launched. -/
theorem run_named : θ_run defs (onTc (τ := τ) (main (F := F))) ⟨m, fun _ => 0, ρ⟩ (fun r => ∀ c : Dev nD,
      r.2.mem ((c.tc : Thread nD τ).loc main_v41) = W5 m ρ c (Proc.devRef .tc main_v41)
      ∧ r.2.mem ((c.tc : Thread nD τ).loc main_v40_0) = W5 m ρ c (Proc.devRef .tc main_v40_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v41 (by decide)),
       h c _ (mem_uc main_v40_0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Named

end
-- ==== Proof.KernelValue.lean ====
/-
  What the idealized kernel program returns, as functions of its arguments.

  Read through the five stretches of the program: the host computes the in-degrees (a scatter of ones by edge target),
  their reciprocals floored at one as a column, and the neighbour sums of the features (a gather by edge source and a
  scatter-add by edge target); the first kernel leaves the first layer; the host takes the neighbour sums of that
  layer the same way; the second kernel leaves the second layer and its head; the last reshape flattens the head's
  column. The gather and the scatter-add are kept as the operations they are: both programs apply the same ones.
-/
import proofs.«155257_j49606872269110_2_alg».proof.Proof.Gen.KernelIdeal.Frame
import proofs.«155257_j49606872269110_2_alg».proof.Proof.KernelRegions
import proofs.«155257_j49606872269110_2_alg».proof.Proof.KernelRun
import proofs.«155257_j49606872269110_2_alg».proof.Proof.LibColumnForms
import Idealize.ShloMosaic.Lib.StableHlo.Run

set_option maxRecDepth 16384

noncomputable section

namespace Cert.KernelIdeal.Spec

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Regions Cert.KernelIdeal.Named

variable (m : (ℓ : Loc nD τ sig) → Buf (Elt Ideal) ℓ) (ρ : Dev nD → PrngReg) (c : Dev nD)

/-- The edges' source nodes and target nodes: the two rows of the edge list. -/
def srcOf : IVec S800000 32 :=
  shapeCast S800000 (extractStridedSlice S1x800000 ![0, 0] (m ((c.tc : Thread nD τ).loc main_arg1)) slices_S2x800000_S1x800000_0_0) shapeCasts_S1x800000_S800000
def dstOf : IVec S800000 32 :=
  shapeCast S800000 (extractStridedSlice S1x800000 ![1, 0] (m ((c.tc : Thread nD τ).loc main_arg1)) slices_S2x800000_S1x800000_1_0) shapeCasts_S1x800000_S800000

/-- The neighbour sums of a feature array: its rows gathered by edge source (a negative source counted from the end,
    as jnp indexing does) and added up by edge target into a zero array. -/
def aggOf (h : S50000x128.Idx → EReal) : S50000x128.Idx → EReal :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (dstOf m c))
    (Host.gather gather_S50000x128_S800000x1_S800000x128_1_0_n_n_0_1_1128 h
      (broadcastInDim S800000x1 ![0] bcast_S800000_S800000x1_0
        (select (cmpi .slt (srcOf m c) (broadcastInDim S800000 ![] bcast_S_S800000 (constantI S_ 32 0#32)))
          (addi (srcOf m c) (broadcastInDim S800000 ![] bcast_S_S800000 (constantI S_ 32 50000#32))) (srcOf m c))))

/-- The in-degrees: ones added up by edge target. -/
def degOf : S50000.Idx → EReal :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (dstOf m c))
    (broadcastInDim S800000 ![] bcast_S_S800000 (constant (F := Ideal) S_ .f32 0x3F800000#32))

/-- The reciprocal of a degree vector floored at one, as a column; a bias vector as a one-row matrix; a bias
    cell as a one-cell matrix; a column flattened to a vector. -/
def invCol (deg : S50000.Idx → EReal) : S50000x1.Idx → EReal :=
  shapeCast S50000x1 (Host.divf (F := Ideal) (broadcastInDim S50000 ![] bcast_S_S50000 (constant (F := Ideal) S_ .f32 0x3F800000#32))
    (maximumf deg (broadcastInDim S50000 ![] bcast_S_S50000 (constant (F := Ideal) S_ .f32 0x3F800000#32)))) shapeCasts_S50000_S50000x1
def biasRow (b : S128.Idx → EReal) : S1x128.Idx → EReal := shapeCast S1x128 b shapeCasts_S128_S1x128
def biasCell (b : S1.Idx → EReal) : S1x1.Idx → EReal := shapeCast S1x1 b shapeCasts_S1_S1x1
def flat (x : S50000x1.Idx → EReal) : S50000.Idx → EReal := shapeCast S50000 x shapeCasts_S50000x1_S50000

/-- The reciprocal of the in-degree floored at one, as a column. -/
def invOf : S50000x1.Idx → EReal := invCol (degOf m c)

/-- The first layer, the second layer, and the flattened head. -/
def h1Of : S50000x128.Idx → EReal :=
  layerArr (aggOf m c (m ((c.tc : Thread nD τ).loc main_arg0))) (m ((c.tc : Thread nD τ).loc main_arg0)) (invOf m c) (m ((c.tc : Thread nD τ).loc main_arg2)) (m ((c.tc : Thread nD τ).loc main_arg4)) (biasRow (m ((c.tc : Thread nD τ).loc main_arg3)))
def h2Of : S50000x128.Idx → EReal :=
  layerArr (aggOf m c (h1Of m c)) (h1Of m c) (invOf m c) (m ((c.tc : Thread nD τ).loc main_arg5)) (m ((c.tc : Thread nD τ).loc main_arg7)) (biasRow (m ((c.tc : Thread nD τ).loc main_arg6)))
def outOf : S50000.Idx → EReal :=
  flat (headArr (h2Of m c) (m ((c.tc : Thread nD τ).loc main_arg8)) (biasCell (m ((c.tc : Thread nD τ).loc main_arg9))))

/-! ## The buffers the first kernel finds -/

theorem W1_v1 : W1 m ρ c (Proc.devRef .tc main_v1) = srcOf m c := by
  show StableHlo.after hostOps0 (W0 m ρ c) (Proc.devRef .tc main_v1) = _
  after_results_simp
  rfl
theorem W1_v3 : W1 m ρ c (Proc.devRef .tc main_v3) = dstOf m c := by
  show StableHlo.after hostOps0 (W0 m ρ c) (Proc.devRef .tc main_v3) = _
  after_results_simp
  rfl
theorem W1_v12 : W1 m ρ c (Proc.devRef .tc main_v12) = invOf m c := by
  show StableHlo.after hostOps0 (W0 m ρ c) (Proc.devRef .tc main_v12) = _
  after_results_simp
  rfl
theorem W1_v24 : W1 m ρ c (Proc.devRef .tc main_v24) = aggOf m c (m ((c.tc : Thread nD τ).loc main_arg0)) := by
  show StableHlo.after hostOps0 (W0 m ρ c) (Proc.devRef .tc main_v24) = _
  after_results_simp
  rfl
theorem W1_v25 : W1 m ρ c (Proc.devRef .tc main_v25) = biasRow (m ((c.tc : Thread nD τ).loc main_arg3)) := by
  show StableHlo.after hostOps0 (W0 m ρ c) (Proc.devRef .tc main_v25) = _
  after_results_simp
  rfl
theorem W1_arg0 : W1 m ρ c (Proc.devRef .tc main_arg0) = (m ((c.tc : Thread nD τ).loc main_arg0)) := by
  show StableHlo.after hostOps0 (W0 m ρ c) (Proc.devRef .tc main_arg0) = _
  after_results_simp
theorem W1_arg2 : W1 m ρ c (Proc.devRef .tc main_arg2) = (m ((c.tc : Thread nD τ).loc main_arg2)) := by
  show StableHlo.after hostOps0 (W0 m ρ c) (Proc.devRef .tc main_arg2) = _
  after_results_simp
theorem W1_arg4 : W1 m ρ c (Proc.devRef .tc main_arg4) = (m ((c.tc : Thread nD τ).loc main_arg4)) := by
  show StableHlo.after hostOps0 (W0 m ρ c) (Proc.devRef .tc main_arg4) = _
  after_results_simp
theorem W1_arg5 : W1 m ρ c (Proc.devRef .tc main_arg5) = (m ((c.tc : Thread nD τ).loc main_arg5)) := by
  show StableHlo.after hostOps0 (W0 m ρ c) (Proc.devRef .tc main_arg5) = _
  after_results_simp
theorem W1_arg6 : W1 m ρ c (Proc.devRef .tc main_arg6) = (m ((c.tc : Thread nD τ).loc main_arg6)) := by
  show StableHlo.after hostOps0 (W0 m ρ c) (Proc.devRef .tc main_arg6) = _
  after_results_simp
theorem W1_arg7 : W1 m ρ c (Proc.devRef .tc main_arg7) = (m ((c.tc : Thread nD τ).loc main_arg7)) := by
  show StableHlo.after hostOps0 (W0 m ρ c) (Proc.devRef .tc main_arg7) = _
  after_results_simp
theorem W1_arg8 : W1 m ρ c (Proc.devRef .tc main_arg8) = (m ((c.tc : Thread nD τ).loc main_arg8)) := by
  show StableHlo.after hostOps0 (W0 m ρ c) (Proc.devRef .tc main_arg8) = _
  after_results_simp
theorem W1_arg9 : W1 m ρ c (Proc.devRef .tc main_arg9) = (m ((c.tc : Thread nD τ).loc main_arg9)) := by
  show StableHlo.after hostOps0 (W0 m ρ c) (Proc.devRef .tc main_arg9) = _
  after_results_simp

/-! ## Between the kernels -/

theorem W2_v26 : W2 m ρ c (Proc.devRef .tc main_v26) = h1Of m c := by
  refine (W2_arr m ρ c 6).trans ((final0_6 (V1 m ρ) c).trans ?_)
  show layerArr (W1 m ρ c (Proc.devRef .tc main_v24)) (W1 m ρ c (Proc.devRef .tc main_arg0)) (W1 m ρ c (Proc.devRef .tc main_v12))
    (W1 m ρ c (Proc.devRef .tc main_arg2)) (W1 m ρ c (Proc.devRef .tc main_arg4)) (W1 m ρ c (Proc.devRef .tc main_v25)) = _
  rw [W1_v24, W1_arg0, W1_v12, W1_arg2, W1_arg4, W1_v25]
  rfl
theorem W2_v12 : W2 m ρ c (Proc.devRef .tc main_v12) = invOf m c :=
  ((W2_arr m ρ c 2).trans (((dat0 (V1 m ρ) c).arrAt_in 2 rfl _).trans (A_eq0 (V1 m ρ) c 2))).trans (W1_v12 m ρ c)
theorem W2_v1 : W2 m ρ c (Proc.devRef .tc main_v1) = srcOf m c := (W2_of_ne m ρ c main_v1 (by decide)).trans (W1_v1 m ρ c)
theorem W2_v3 : W2 m ρ c (Proc.devRef .tc main_v3) = dstOf m c := (W2_of_ne m ρ c main_v3 (by decide)).trans (W1_v3 m ρ c)
theorem W2_arg5 : W2 m ρ c (Proc.devRef .tc main_arg5) = (m ((c.tc : Thread nD τ).loc main_arg5)) := (W2_of_ne m ρ c main_arg5 (by decide)).trans (W1_arg5 m ρ c)
theorem W2_arg6 : W2 m ρ c (Proc.devRef .tc main_arg6) = (m ((c.tc : Thread nD τ).loc main_arg6)) := (W2_of_ne m ρ c main_arg6 (by decide)).trans (W1_arg6 m ρ c)
theorem W2_arg7 : W2 m ρ c (Proc.devRef .tc main_arg7) = (m ((c.tc : Thread nD τ).loc main_arg7)) := (W2_of_ne m ρ c main_arg7 (by decide)).trans (W1_arg7 m ρ c)
theorem W2_arg8 : W2 m ρ c (Proc.devRef .tc main_arg8) = (m ((c.tc : Thread nD τ).loc main_arg8)) := (W2_of_ne m ρ c main_arg8 (by decide)).trans (W1_arg8 m ρ c)
theorem W2_arg9 : W2 m ρ c (Proc.devRef .tc main_arg9) = (m ((c.tc : Thread nD τ).loc main_arg9)) := (W2_of_ne m ρ c main_arg9 (by decide)).trans (W1_arg9 m ρ c)

/-! ## The buffers the second kernel finds -/

theorem W3_v37 : W3 m ρ c (Proc.devRef .tc main_v37) = aggOf m c (h1Of m c) := by
  show StableHlo.after hostOps1 (W2 m ρ c) (Proc.devRef .tc main_v37) = _
  after_results_simp
  rw [W2_v1, W2_v3, W2_v26]
  rfl
theorem W3_v26 : W3 m ρ c (Proc.devRef .tc main_v26) = h1Of m c := by
  show StableHlo.after hostOps1 (W2 m ρ c) (Proc.devRef .tc main_v26) = _
  after_results_simp
  exact W2_v26 m ρ c
theorem W3_v12 : W3 m ρ c (Proc.devRef .tc main_v12) = invOf m c := by
  show StableHlo.after hostOps1 (W2 m ρ c) (Proc.devRef .tc main_v12) = _
  after_results_simp
  exact W2_v12 m ρ c
theorem W3_arg5 : W3 m ρ c (Proc.devRef .tc main_arg5) = (m ((c.tc : Thread nD τ).loc main_arg5)) := by
  show StableHlo.after hostOps1 (W2 m ρ c) (Proc.devRef .tc main_arg5) = _
  after_results_simp
  exact W2_arg5 m ρ c
theorem W3_arg7 : W3 m ρ c (Proc.devRef .tc main_arg7) = (m ((c.tc : Thread nD τ).loc main_arg7)) := by
  show StableHlo.after hostOps1 (W2 m ρ c) (Proc.devRef .tc main_arg7) = _
  after_results_simp
  exact W2_arg7 m ρ c
theorem W3_arg8 : W3 m ρ c (Proc.devRef .tc main_arg8) = (m ((c.tc : Thread nD τ).loc main_arg8)) := by
  show StableHlo.after hostOps1 (W2 m ρ c) (Proc.devRef .tc main_arg8) = _
  after_results_simp
  exact W2_arg8 m ρ c
theorem W3_v38 : W3 m ρ c (Proc.devRef .tc main_v38) = biasRow (m ((c.tc : Thread nD τ).loc main_arg6)) := by
  show StableHlo.after hostOps1 (W2 m ρ c) (Proc.devRef .tc main_v38) = _
  after_results_simp
  rw [W2_arg6]
  rfl
theorem W3_v39 : W3 m ρ c (Proc.devRef .tc main_v39) = biasCell (m ((c.tc : Thread nD τ).loc main_arg9)) := by
  show StableHlo.after hostOps1 (W2 m ρ c) (Proc.devRef .tc main_v39) = _
  after_results_simp
  rw [W2_arg9]
  rfl

/-! ## After the second kernel -/

theorem W4_v40_0 : W4 m ρ c (Proc.devRef .tc main_v40_0) = h2Of m c := by
  refine (W4_arr m ρ c 8).trans ((final1_8 (V3 m ρ) c).trans ?_)
  show layerArr (W3 m ρ c (Proc.devRef .tc main_v37)) (W3 m ρ c (Proc.devRef .tc main_v26)) (W3 m ρ c (Proc.devRef .tc main_v12))
    (W3 m ρ c (Proc.devRef .tc main_arg5)) (W3 m ρ c (Proc.devRef .tc main_arg7)) (W3 m ρ c (Proc.devRef .tc main_v38)) = _
  rw [W3_v37, W3_v26, W3_v12, W3_arg5, W3_arg7, W3_v38]
  rfl
theorem W4_v40_1 : W4 m ρ c (Proc.devRef .tc main_v40_1) = headArr (h2Of m c) (m ((c.tc : Thread nD τ).loc main_arg8)) (biasCell (m ((c.tc : Thread nD τ).loc main_arg9))) := by
  refine (W4_arr m ρ c 9).trans ((final1_9 (V3 m ρ) c).trans ?_)
  show headArr (layerArr (W3 m ρ c (Proc.devRef .tc main_v37)) (W3 m ρ c (Proc.devRef .tc main_v26)) (W3 m ρ c (Proc.devRef .tc main_v12))
    (W3 m ρ c (Proc.devRef .tc main_arg5)) (W3 m ρ c (Proc.devRef .tc main_arg7)) (W3 m ρ c (Proc.devRef .tc main_v38)))
    (W3 m ρ c (Proc.devRef .tc main_arg8)) (W3 m ρ c (Proc.devRef .tc main_v39)) = _
  rw [W3_v37, W3_v26, W3_v12, W3_arg5, W3_arg7, W3_v38, W3_arg8, W3_v39]
  rfl
theorem W5_v40_0 : W5 m ρ c (Proc.devRef .tc main_v40_0) = h2Of m c := by
  show StableHlo.after hostOps2 (W4 m ρ c) (Proc.devRef .tc main_v40_0) = _
  after_results_simp
  exact W4_v40_0 m ρ c
theorem W5_v41 : W5 m ρ c (Proc.devRef .tc main_v41) = outOf m c := by
  show StableHlo.after hostOps2 (W4 m ρ c) (Proc.devRef .tc main_v41) = _
  after_results_simp
  rw [W4_v40_1]
  rfl

/-! ## The run, read -/

/-- Every weakly fair execution of the idealized kernel program terminates with its first result at the flattened head
    of the second layer, its second result at the second layer, and the arguments as launched. -/
theorem run : θ_run defs (onTc (τ := τ) (main (F := Ideal))) ⟨m, fun _ => 0, ρ⟩ (fun r => ∀ c : Dev nD,
      r.2.mem ((c.tc : Thread nD τ).loc main_v41) = outOf m c
      ∧ r.2.mem ((c.tc : Thread nD τ).loc main_v40_0) = h2Of m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W5_v41 m ρ c), (h c).2.1.trans (W5_v40_0 m ρ c), (h c).2.2⟩)
    (run_named m ρ)

/-! ## The layout steps at an entry -/

/-- The reciprocal-degree column at node `n`. -/
theorem invCol_apply (deg : S50000.Idx → EReal) (n : Fin 50000) :
    invCol deg (ix2 n (0 : Fin 1))
      = Ideal.div (Ideal.ofBits .f32 0x3F800000#32) (max (deg (ix1 n)) (Ideal.ofBits .f32 0x3F800000#32)) := by
  unfold invCol
  exact Cert.ColumnForms.shapeCast_a_a1_apply _ shapeCasts_S50000_S50000x1 n (0 : Fin 1)

/-- A vector as a one-row matrix reads, at `(0, o)`, the vector at `o`. -/
theorem biasRow_apply (b : S128.Idx → EReal) (o : Fin 128) : biasRow b (ix2 (0 : Fin 1) o) = b (ix1 o) := by
  unfold biasRow
  exact shapeCast_apply b shapeCasts_S128_S1x128 _ _ (by
    rw [Shape.rowMajor_val_two, Shape.rowMajor_val_one]
    show o.val = 0 * 128 + o.val
    omega)
theorem biasCell_apply (b : S1.Idx → EReal) (u : Fin 1) : biasCell b (ix2 (0 : Fin 1) u) = b (ix1 u) := by
  unfold biasCell
  exact shapeCast_apply b shapeCasts_S1_S1x1 _ _ (by
    rw [Shape.rowMajor_val_two, Shape.rowMajor_val_one]
    show u.val = 0 * 1 + u.val
    omega)

end Cert.KernelIdeal.Spec

end
-- ==== Proof.LibPlainHostProduct.lean ====
/-
  A plain host matrix product read at an index, over the extended reals.

  The host's `dot_general` of an `R × n` matrix by an `n × k` matrix (the left operand contracted on its second axis,
  the right one on its first, no batch axis) is, at row `q` and column `o`, the sum over `c : Fin n` of
  `A (q, c) * B (c, o)`, whatever the schedule key: there is no accumulator, and the contraction index, a one-axis
  multi-index, is re-indexed by its one coordinate. It is the host counterpart of the kernel-side product into the
  zero matrix, over the same dimension numbers `plainDims`, so the two meet in one sum.
-/
import Idealize.ShloMosaic.PureOps.Ideal
import Idealize.ShloMosaic.PureOps.Ideal.Laws
import Idealize.ShloMosaic.Lib.ValueIdx
import proofs.«155257_j49606872269110_2_alg».proof.Proof.LibPlainMatmul

noncomputable section

namespace Cert.PointConv

open Idealize.ShloMosaic Idealize.ShloMosaic.ValueIdx

/-- A host product of an `R × n` by an `n × k` matrix, at `(q, o)`: the sum over the shared axis. -/
theorem plainDotGeneral_apply {R n k : Nat} {φ₁ φ₂ : FTy} (wf) (prec : Option ContractPrecision) (sched : HostSchedule)
    (A : FVec Ideal (⟨2, ![R, n]⟩ : Shape) φ₁) (B : FVec Ideal (⟨2, ![n, k]⟩ : Shape) φ₂) (q : Fin R) (o : Fin k) :
    FloatOps.dotGeneral (plainDims R n k wf) prec sched A B (ix2 q o) = ∑ c : Fin n, A (ix2 q c) * B (ix2 c o) := by
  rw [Ideal.dotGeneral_apply, ← Equiv.sum_comp (plainContr wf).symm]
  refine Finset.sum_congr rfl fun c _ => ?_
  rw [plainDims_lhsIdx, plainDims_rhsIdx]

end Cert.PointConv

end
-- ==== Proof.RefForms.lean ====
/-
  What the idealized reference returns, as functions of its arguments, and its layer read at an entry.

  The reference applies, twice, the layer in its mean form: the neighbour sums divided entry by entry by the in-degree
  floored at one (the degree laid out as a column and copied along the rows), contracted with the first weights, plus
  the bias row copied down, plus the features contracted with the second weights, floored at zero; then the head.
  Its gather by edge source and scatter-add by edge target are kept as the operations they are.
-/
import proofs.«155257_j49606872269110_2_alg».proof.Proof.Gen.ReferenceIdeal.Run
import proofs.«155257_j49606872269110_2_alg».proof.Proof.LibPlainHostProduct
import proofs.«155257_j49606872269110_2_alg».proof.Proof.LibHostRowForms
import proofs.«155257_j49606872269110_2_alg».proof.Proof.LibSageLayer
import Idealize.ShloMosaic.Lib.ValueIdx
import Idealize.ShloMosaic.PureOps.Ideal.Laws

set_option maxRecDepth 16384

noncomputable section

namespace Cert.ReferenceIdeal.Forms

open Idealize.ShloMosaic Idealize.ShloMosaic.TcCoe Idealize.SL.Sem Idealize.ShloMosaic.ValueIdx
open Cert.ReferenceIdeal Cert.ReferenceIdeal.Gen Cert.ReferenceIdeal.Value
open Cert.PointConv Cert.HostRowForms Cert.SageLayer
open scoped BigOperators

variable (m : (ℓ : Loc nD τ sig) → Buf (Elt Ideal) ℓ) (c : Dev nD)

/-- The float words of zero and of one. -/
abbrev zeroWord : EReal := Ideal.ofBits .f32 0x00000000#32
abbrev oneWord : EReal := Ideal.ofBits .f32 0x3F800000#32

/-- The edges' source nodes and target nodes: the two rows of the edge list. -/
def srcOf : IVec S800000 32 :=
  shapeCast S800000 (extractStridedSlice S1x800000 ![0, 0] (m ((c.tc : Thread nD τ).loc main_arg1)) slices_S2x800000_S1x800000_0_0) shapeCasts_S1x800000_S800000
def dstOf : IVec S800000 32 :=
  shapeCast S800000 (extractStridedSlice S1x800000 ![1, 0] (m ((c.tc : Thread nD τ).loc main_arg1)) slices_S2x800000_S1x800000_1_0) shapeCasts_S1x800000_S800000

/-- The neighbour sums of a feature array: its rows gathered by edge source and added up by edge target. -/
def aggOf (h : S50000x128.Idx → EReal) : S50000x128.Idx → EReal :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (dstOf m c))
    (Host.gather gather_S50000x128_S800000x1_S800000x128_1_0_n_n_0_1_1128 h
      (broadcastInDim S800000x1 ![0] bcast_S800000_S800000x1_0
        (select (cmpi .slt (srcOf m c) (broadcastInDim S800000 ![] bcast_S_S800000 (constantI S_ 32 0#32)))
          (addi (srcOf m c) (broadcastInDim S800000 ![] bcast_S_S800000 (constantI S_ 32 50000#32))) (srcOf m c))))

/-- The in-degrees: ones added up by edge target. -/
def degOf : S50000.Idx → EReal :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (dstOf m c))
    (broadcastInDim S800000 ![] bcast_S_S800000 (constant (F := Ideal) S_ .f32 0x3F800000#32))

/-- The layer in its mean form, on whole arrays, as the host operations the reference applies. -/
def meanLayer (agg : S50000x128.Idx → EReal) (deg : S50000.Idx → EReal) (h : S50000x128.Idx → EReal)
    (wl : S128x128.Idx → EReal) (b : S128.Idx → EReal) (wr : S128x128.Idx → EReal) : S50000x128.Idx → EReal :=
  maximumf (F := Ideal) (φ := .f32)
    (addf (F := Ideal) (φ := .f32)
      (addf (F := Ideal) (φ := .f32)
        (Host.dotGeneral (F := Ideal) (φ₁ := .f32) (φ₂ := .f32) dot_S50000x128_S128x128_S50000x128_1_0_0_1_n_n none
          (Host.divf (F := Ideal) (φ := .f32) agg (broadcastInDim S50000x128 ![0, 1] bcast_S50000x1_S50000x128_0_1
            (broadcastInDim S50000x1 ![0] bcast_S50000_S50000x1_0
              (maximumf (F := Ideal) (φ := .f32) deg (broadcastInDim S50000 ![] bcast_S_S50000 (constant (F := Ideal) S_ .f32 0x3F800000#32))))))
          wl)
        (broadcastInDim S50000x128 ![0, 1] bcast_S1x128_S50000x128_0_1 (broadcastInDim S1x128 ![1] bcast_S128_S1x128_1 b)))
      (Host.dotGeneral (F := Ideal) (φ₁ := .f32) (φ₂ := .f32) dot_S50000x128_S128x128_S50000x128_1_0_0_1_n_n none h wr))
    (broadcastInDim S50000x128 ![] bcast_S_S50000x128 (constant (F := Ideal) S_ .f32 0x00000000#32))

/-- The head on whole arrays, as the host operations the reference applies: a column, then flattened. -/
def headCol (h : S50000x128.Idx → EReal) (w : S128x1.Idx → EReal) (b : S1.Idx → EReal) : S50000x1.Idx → EReal :=
  addf (F := Ideal) (φ := .f32)
    (Host.dotGeneral (F := Ideal) (φ₁ := .f32) (φ₂ := .f32) dot_S50000x128_S128x1_S50000x1_1_0_0_1_n_n none h w)
    (broadcastInDim S50000x1 ![0, 1] bcast_S1x1_S50000x1_0_1 (broadcastInDim S1x1 ![1] bcast_S1_S1x1_1 b))
def headOf (h : S50000x128.Idx → EReal) (w : S128x1.Idx → EReal) (b : S1.Idx → EReal) : S50000.Idx → EReal :=
  shapeCast S50000 (headCol h w b) shapeCasts_S50000x1_S50000

/-- The reference's two layers. -/
def h1Of : S50000x128.Idx → EReal :=
  meanLayer (aggOf m c (m ((c.tc : Thread nD τ).loc main_arg0))) (degOf m c) (m ((c.tc : Thread nD τ).loc main_arg0)) (m ((c.tc : Thread nD τ).loc main_arg2)) (m ((c.tc : Thread nD τ).loc main_arg3)) (m ((c.tc : Thread nD τ).loc main_arg4))
def h2Of : S50000x128.Idx → EReal :=
  meanLayer (aggOf m c (h1Of m c)) (degOf m c) (h1Of m c) (m ((c.tc : Thread nD τ).loc main_arg5)) (m ((c.tc : Thread nD τ).loc main_arg6)) (m ((c.tc : Thread nD τ).loc main_arg7))

/-- The reference's results are the second layer and its flattened head. -/
theorem res_h2 : res_main_v55 (F := Ideal) m c = h2Of m c := rfl
theorem res_out : res_main_v60 (F := Ideal) m c = headOf (h2Of m c) (m ((c.tc : Thread nD τ).loc main_arg8)) (m ((c.tc : Thread nD τ).loc main_arg9)) := rfl

/-- Entry `(n, o)` of the mean-form layer. -/
theorem meanLayer_apply (agg : S50000x128.Idx → EReal) (deg : S50000.Idx → EReal) (h : S50000x128.Idx → EReal)
    (wl : S128x128.Idx → EReal) (b : S128.Idx → EReal) (wr : S128x128.Idx → EReal) (n : Fin 50000) (o : Fin 128) :
    meanLayer agg deg h wl b wr (ix2 n o)
      = meanEntry (fun k : Fin 128 => agg (ix2 n k)) (fun k => h (ix2 n k)) (fun k => wl (ix2 k o)) (fun k => wr (ix2 k o))
          (deg (ix1 n)) oneWord (b (ix1 o)) zeroWord := by
  unfold meanLayer meanEntry
  show max (_ + _ + _) _ = _
  refine congrArg₂ max (congrArg₂ (· + ·) (congrArg₂ (· + ·) ?_ ?_) ?_) rfl
  · refine (plainDotGeneral_apply (R := 50000) (n := 128) (k := 128) _ none .single _ _ n o).trans (Finset.sum_congr rfl fun k _ => ?_)
    show Ideal.div (agg (ix2 n k)) (broadcastInDim (s := S50000x1) S50000x128 ![0, 1] bcast_S50000x1_S50000x128_0_1 _ (ix2 n k)) * wl (ix2 k o) = _
    rw [bcast_a1_ab_apply _ _ rfl, bcast_a_a1_apply _ _ rfl]
    rfl
  · show broadcastInDim (s := S1x128) S50000x128 ![0, 1] bcast_S1x128_S50000x128_0_1 _ (ix2 n o) = _
    rw [bcast_1b_ab_apply _ _ rfl, bcast_b_1b_apply _ _ rfl]
  · exact plainDotGeneral_apply (R := 50000) (n := 128) (k := 128) _ none .single _ _ n o

/-- Entry `(n, 0)` of the head's column: row `n` contracted with the weight column, plus the bias. -/
theorem headCol_apply (h : S50000x128.Idx → EReal) (w : S128x1.Idx → EReal) (b : S1.Idx → EReal) (n : Fin 50000) (u : Fin 1) :
    headCol h w b (ix2 n u) = (∑ k : Fin 128, h (ix2 n k) * w (ix2 k u)) + b (ix1 u) := by
  unfold headCol
  show _ + _ = _
  refine congrArg₂ (· + ·) ?_ ?_
  · exact plainDotGeneral_apply (R := 50000) (n := 128) (k := 1) _ none .single _ _ n u
  · show broadcastInDim (s := S1x1) S50000x1 ![0, 1] bcast_S1x1_S50000x1_0_1 _ (ix2 n u) = _
    rw [bcast_1b_ab_apply _ _ rfl, bcast_b_1b_apply _ _ rfl]

end Cert.ReferenceIdeal.Forms

end
-- ==== Proof.Bridge.lean ====
/-
  The two programs compute the same arrays.

  Entry by entry the kernel's layer (neighbour sums times the reciprocal floored degree, the bias added last) is the
  reference's (neighbour sums divided by the floored degree, the bias added before the node's own term): the law of
  one entry, with the column of reciprocals, the one-row bias and the reference's copied-down operands read at the entry.
  The head is the same contraction on both sides. The neighbour sums and the degrees are the same host operations of
  the same edge list on both sides, so they are equal as soon as the arguments are.
-/
import proofs.«155257_j49606872269110_2_alg».proof.Proof.KernelValue
import proofs.«155257_j49606872269110_2_alg».proof.Proof.RefForms
import proofs.«155257_j49606872269110_2_alg».proof.Proof.LibSageLayer
import proofs.«155257_j49606872269110_2_alg».proof.Proof.LibPlainHostProduct
import proofs.«155257_j49606872269110_2_alg».proof.Proof.LibHostRowForms

set_option maxRecDepth 16384

noncomputable section

namespace Cert.Bridge

open Idealize.ShloMosaic Idealize.ShloMosaic.TcCoe Idealize.SL.Sem Idealize.ShloMosaic.ValueIdx
open Cert.SageLayer Cert.PointConv Cert.HostRowForms
open scoped BigOperators

/-- The kernel's layer with the reciprocal-degree column and the one-row bias is the reference's mean-form layer. -/
theorem layer_eq (agg : Cert.KernelIdeal.S50000x128.Idx → EReal) (deg : Cert.KernelIdeal.S50000.Idx → EReal)
    (h : Cert.KernelIdeal.S50000x128.Idx → EReal) (wl : Cert.KernelIdeal.S128x128.Idx → EReal)
    (b : Cert.KernelIdeal.S128.Idx → EReal) (wr : Cert.KernelIdeal.S128x128.Idx → EReal) :
    Cert.KernelIdeal.Regions.layerArr agg h (Cert.KernelIdeal.Spec.invCol deg) wl wr (Cert.KernelIdeal.Spec.biasRow b)
      = Cert.ReferenceIdeal.Forms.meanLayer agg deg h wl b wr := by
  funext i
  obtain ⟨n, o, rfl⟩ : ∃ (n : Fin 50000) (o : Fin 128), i = ix2 n o := ⟨i 0, i 1, eq_ix2 i⟩
  rw [Cert.ReferenceIdeal.Forms.meanLayer_apply]
  unfold Cert.KernelIdeal.Regions.layerArr
  refine Eq.trans ?_ (scaledEntry_recip_eq_meanEntry _ _ _ _ _ _ _)
  exact scaledEntry_congr _ rfl rfl rfl rfl (Cert.KernelIdeal.Spec.invCol_apply deg n) (Cert.KernelIdeal.Spec.biasRow_apply b o)

/-- The kernel's head, flattened, is the reference's. -/
theorem head_eq (h : Cert.KernelIdeal.S50000x128.Idx → EReal) (w : Cert.KernelIdeal.S128x1.Idx → EReal)
    (b : Cert.KernelIdeal.S1.Idx → EReal) :
    Cert.KernelIdeal.Spec.flat (Cert.KernelIdeal.Regions.headArr h w (Cert.KernelIdeal.Spec.biasCell b))
      = Cert.ReferenceIdeal.Forms.headOf h w b := by
  have e : Cert.KernelIdeal.Regions.headArr h w (Cert.KernelIdeal.Spec.biasCell b) = Cert.ReferenceIdeal.Forms.headCol h w b := by
    funext i
    obtain ⟨n, u, rfl⟩ : ∃ (n : Fin 50000) (u : Fin 1), i = ix2 n u := ⟨i 0, i 1, eq_ix2 i⟩
    rw [Cert.ReferenceIdeal.Forms.headCol_apply]
    unfold Cert.KernelIdeal.Regions.headArr
    exact congrArg (fun z => (∑ k : Fin 128, h (ix2 n k) * w (ix2 k u)) + z) (Cert.KernelIdeal.Spec.biasCell_apply b u)
  unfold Cert.KernelIdeal.Spec.flat Cert.ReferenceIdeal.Forms.headOf
  rw [e]

section Agree

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- From equal edge lists the two programs take equal neighbour sums of any feature array, and equal degrees. -/
theorem agg_eq (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h : Cert.KernelIdeal.S50000x128.Idx → EReal) :
    Cert.ReferenceIdeal.Forms.aggOf m' c h = Cert.KernelIdeal.Spec.aggOf m c h := by
  unfold Cert.ReferenceIdeal.Forms.aggOf Cert.KernelIdeal.Spec.aggOf Cert.ReferenceIdeal.Forms.srcOf Cert.ReferenceIdeal.Forms.dstOf
    Cert.KernelIdeal.Spec.srcOf Cert.KernelIdeal.Spec.dstOf
  rw [h1]
  rfl

theorem deg_eq (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) :
    Cert.ReferenceIdeal.Forms.degOf m' c = Cert.KernelIdeal.Spec.degOf m c := by
  unfold Cert.ReferenceIdeal.Forms.degOf Cert.KernelIdeal.Spec.degOf Cert.ReferenceIdeal.Forms.dstOf Cert.KernelIdeal.Spec.dstOf
  rw [h1]
  rfl

/-- From equal arguments: equal first layers, equal second layers, equal heads. -/
theorem h1_eq (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))) (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))) :
    Cert.ReferenceIdeal.Forms.h1Of m' c = Cert.KernelIdeal.Spec.h1Of m c := by
  unfold Cert.ReferenceIdeal.Forms.h1Of Cert.KernelIdeal.Spec.h1Of Cert.KernelIdeal.Spec.invOf
  rw [h0, h2, h3, h4, agg_eq m m' c h1, deg_eq m m' c h1]
  exact (layer_eq _ _ _ _ _ _).symm

theorem h2_eq (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))) (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))) (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))) (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) :
    Cert.ReferenceIdeal.Forms.h2Of m' c = Cert.KernelIdeal.Spec.h2Of m c := by
  unfold Cert.ReferenceIdeal.Forms.h2Of Cert.KernelIdeal.Spec.h2Of Cert.KernelIdeal.Spec.invOf
  rw [h5, h6, h7, h1_eq m m' c h0 h1 h2 h3 h4, agg_eq m m' c h1, deg_eq m m' c h1]
  exact (layer_eq _ _ _ _ _ _).symm

end Agree

end Cert.Bridge

end
-- ==== Proof.lean ====
/-
  A two-layer mean-aggregation graph network (50000 nodes, 800000 edges, 128 features) with a linear head: a Pallas
  kernel program against its jnp reference, equal as extended reals.

  Both programs take the in-degree of every node (ones added up by edge target) and, for each layer, the neighbour sums
  of the layer's input (rows gathered by edge source, added up by edge target). The reference then forms
  relu(sums / max(deg, 1) · Wl + b + h · Wr) with host operations on whole arrays, twice, and the head h2 · Wout + bout.
  The kernel program takes the reciprocal 1 / max(deg, 1) once, as a column, and runs each layer in a kernel over ten
  blocks of 5000 nodes: relu((sums · recip) · Wl + h · Wr + b), the second kernel also the head of its own output block.
  Narrowing to a shorter float format is the identity on extended reals, a matrix-unit product into a zero
  accumulator and the host's contraction are the same finite sum, and the blocks tile the arrays; what remains is one
  law per output entry: a quotient by a divisor that is at least one is the product with its reciprocal, and three
  summands add in any order. Neither needs the inputs to be finite, so the precondition is never opened.

  The kernel's side: each kernel's output arrays as whole-array functions of the arrays it finds
  (Proof/KernelRegions.lean over the entries of Proof/KernelBlocks.lean), the program's run with its results named
  (Proof/KernelRun.lean) and read back through the host operations around the kernels (Proof/KernelValue.lean).
  The reference's side: its generated run, its results as two applications of the mean-form layer and the head
  (Proof/RefForms.lean). Proof/Bridge.lean joins them.
-/
import proofs.«155257_j49606872269110_2_alg».proof.Defs
import proofs.«155257_j49606872269110_2_alg».proof.Proof.Gen.Kernel
import proofs.«155257_j49606872269110_2_alg».proof.Proof.Gen.Kernel.Frame
import proofs.«155257_j49606872269110_2_alg».proof.Proof.Gen.KernelIdeal
import proofs.«155257_j49606872269110_2_alg».proof.Proof.Gen.KernelIdeal.Frame
import proofs.«155257_j49606872269110_2_alg».proof.Proof.Gen.ReferenceIdeal
import proofs.«155257_j49606872269110_2_alg».proof.Proof.Gen.ReferenceIdeal.Run
import proofs.«155257_j49606872269110_2_alg».proof.Proof.Gen.Pre_finite_inputs
import proofs.«155257_j49606872269110_2_alg».proof.Proof.KernelValue
import proofs.«155257_j49606872269110_2_alg».proof.Proof.RefForms
import proofs.«155257_j49606872269110_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program and its idealization run, fault-free, with the arguments unchanged. -/
theorem frame_kernel : Cert.frame_Kernel := fun m ρ _ => Cert.Kernel.Gen.frame m ρ
theorem frame_kernelIdeal : Cert.frame_KernelIdeal := fun m ρ _ => Cert.KernelIdeal.Gen.frame m ρ

/-- The reference runs, fault-free, with the arguments unchanged: its generated run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs end with the flattened head of the second layer
    and the second layer itself: the kernel's as read off its run, the reference's equal to them entry by entry. -/
theorem algebraic : Cert.algebraic_KernelIdeal_ReferenceIdeal := by
  intro m ρ m' ρ' _ hagree
  refine ⟨fun c => Cert.KernelIdeal.Spec.outOf m c, fun c => Cert.KernelIdeal.Spec.h2Of m c,
    Cert.KernelIdeal.Spec.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  have e2 := Cert.Bridge.h2_eq m m' c a0 a1 a2 a3 a4 a5 a6 a7
  refine ⟨(h c).1.trans ?_, (h c).2.1.trans ?_, (h c).2.2⟩
  · rw [Cert.ReferenceIdeal.Forms.res_out, e2, a8, a9]
    exact (Cert.Bridge.head_eq _ _ _).symm
  · rw [Cert.ReferenceIdeal.Forms.res_h2]
    exact e2

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
